-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 76
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128x128, .f32⟩
  | .hbm, ⟨24, _⟩ => ⟨S128x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S1x128x128, .f32⟩
  | .hbm, ⟨25, _⟩ => ⟨S128x128, .f32⟩
  | .hbm, ⟨26, _⟩ => ⟨S50000x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S1x128x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S50000x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S1x128x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S1x128x128, .f32⟩
  | .hbm, ⟨108, _⟩ => ⟨S128x128, .f32⟩
  | .hbm, ⟨109, _⟩ => ⟨S50000x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call1_cst : Ref sig .tc := ⟨.hbm, 43, rfl⟩
abbrev main_call1_v0 : Ref sig .tc := ⟨.hbm, 44, rfl⟩
abbrev main_v32 : Ref sig .tc := ⟨.hbm, 45, rfl⟩
abbrev main_c_1 : Ref sig .tc := ⟨.hbm, 46, rfl⟩
abbrev main_v33 : Ref sig .tc := ⟨.hbm, 47, rfl⟩
abbrev main_v34 : Ref sig .tc := ⟨.hbm, 48, rfl⟩
abbrev main_c_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call2_cst : Ref sig .tc := ⟨.hbm, 68, rfl⟩
abbrev main_call2_v0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call3_cst : Ref sig .tc := ⟨.hbm, 79, rfl⟩
abbrev main_call3_v0 : Ref sig .tc := ⟨.hbm, 80, rfl⟩
abbrev main_v61 : Ref sig .tc := ⟨.hbm, 81, rfl⟩
abbrev main_c_4 : Ref sig .tc := ⟨.hbm, 82, rfl⟩
abbrev main_v62 : Ref sig .tc := ⟨.hbm, 83, rfl⟩
abbrev main_v63 : Ref sig .tc := ⟨.hbm, 84, rfl⟩
abbrev main_c_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call4_cst : Ref sig .tc := ⟨.hbm, 104, rfl⟩
abbrev main_call4_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_call5_cst : Ref sig .tc := ⟨.hbm, 115, rfl⟩
abbrev main_call5_v0 : Ref sig .tc := ⟨.hbm, 116, rfl⟩
abbrev main_v90 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GinRun.lean ====
/-
  The program's run with its result named.

  The run of the three grids among their stretches of host operations ends with every buffer of the core at the
  contents the last boundary names (`Gen.W6`: the fold of the host stretches and of the grids' write-backs from the
  launch memory). Read at the result buffer this gives the result's contents by name; read at the six arguments it gives
  them back as launched.
-/
import proofs.«150625_j53979148976510_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments end as launched. -/
theorem run_named : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.GinRun

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibRowOps.lean ====
/-
  Row operations of a small dense network on the extended reals.

  A row is a function `Fin n → EReal`. The operations are the ones a layer applies to one row of its input:
  an affine map `x ↦ x · W + b` (a sum of products plus a bias), the rectifier `max · 0`, the mean of a row,
  the row centred at its mean, the mean of the squared centred row, and layer normalisation
  `(x - mean) · rsqrt (var + ε) · g + b`. None of them needs the entries to be finite: they are stated with the
  extended reals' own `+`, `-`, `*`, `max`, division and reciprocal square root, and every later statement
  about them is an equality of two spellings of the same expression.
-/
import Idealize.ShloMosaic.PureOps.Ideal
import Idealize.ShloMosaic.Lib.ValueIdx

noncomputable section

open scoped BigOperators

namespace Cert.LibRowOps

open Idealize.ShloMosaic Idealize.ShloMosaic.ValueIdx

/-- One row of `n` entries. -/
abbrev Row (n : ℕ) := Fin n → EReal
/-- A `K` by `N` matrix as an array holds it. -/
abbrev Mat (K N : ℕ) := (⟨2, ![K, N]⟩ : Shape).Idx → EReal
/-- A vector of length `N` as an array holds it. -/
abbrev Vect (N : ℕ) := (⟨1, ![N]⟩ : Shape).Idx → EReal

/-- Row `p` of a matrix. -/
def rowOf {R K : ℕ} (x : Mat R K) (p : Fin R) : Row K := fun k => x (ix2 p k)

/-- The affine map: entry `n` is `∑ a, x a * w (a, n)` plus the bias at `n`. -/
def affine {K N : ℕ} (x : Row K) (w : Mat K N) (b : Vect N) : Row N :=
  fun n => (∑ a : Fin K, x a * w (ix2 a n)) + b (ix1 n)

/-- The rectifier, entry by entry, against the float zero. -/
def relu {N : ℕ} (x : Row N) : Row N := fun n => max (x n) (Ideal.ofBits .f32 0x00000000#32)

/-- The mean of a row: its sum divided by the float `d` (the row's length as the program spells it). -/
def mean {N : ℕ} (d : EReal) (x : Row N) : EReal := Ideal.div (∑ k : Fin N, x k) d

/-- The row with its mean taken off. -/
def centred {N : ℕ} (d : EReal) (x : Row N) : Row N := fun n => x n - mean d x

/-- The mean of the squares of the centred row. -/
def variance {N : ℕ} (d : EReal) (x : Row N) : EReal :=
  Ideal.div (∑ k : Fin N, centred d x k * centred d x k) d

/-- Scaling a centred row `c` by the reciprocal root of `v + ε`, then by a gain and a shift. -/
def rescale {N : ℕ} (ε : EReal) (c : Row N) (v : EReal) (g b : Vect N) : Row N :=
  fun n => c n * Ideal.rsqrt (v + ε) * g (ix1 n) + b (ix1 n)

/-- Layer normalisation of a row. -/
def layerNorm {N : ℕ} (d ε : EReal) (x : Row N) (g b : Vect N) : Row N :=
  rescale ε (centred d x) (variance d x) g b

/-- Clamping to `[lo, hi]` followed by the logistic function. -/
def squash (lo hi x : EReal) : EReal := Ideal.logistic (min hi (max lo x))

end Cert.LibRowOps

end
-- ==== Proof.GinSpec.lean ====
/-
  The dense half of one graph-isomorphism layer, on the extended reals.

  A layer takes the node features `x` (one row of `H` numbers per node) and the aggregate `a` of the neighbours'
  rows, adds them row by row, and sends each row through two affine maps, each followed by the rectifier:
  `row ↦ relu (relu ((x_row + a_row) · W1 + b1) · W2 + b2)`. Row `p` of the result depends on row `p` of `x`
  and of `a` only, so a block of consecutive rows of the result is the same expression of the corresponding
  blocks of `x` and `a`. Nothing here needs the entries to be finite: both programs spell this very
  expression, and no law beyond reading sums and products entry by entry is used.
-/
import proofs.«150625_j53979148976510_1_alg».proof.Proof.LibRowOps

noncomputable section

open scoped BigOperators

namespace Cert.Gin

open Idealize.ShloMosaic Idealize.ShloMosaic.ValueIdx Cert.LibRowOps

/-- One row through the layer: the row plus its aggregate, then two rectified affine maps. -/
def mlpRow {H : ℕ} (x a : Row H) (w1 : Mat H H) (b1 : Vect H) (w2 : Mat H H) (b2 : Vect H) : Row H :=
  relu (affine (relu (affine (fun k => x k + a k) w1 b1)) w2 b2)

/-- The layer on every row of an array of `R` rows. -/
def mlp {R H : ℕ} (x a : Mat R H) (w1 : Mat H H) (b1 : Vect H) (w2 : Mat H H) (b2 : Vect H) : Mat R H :=
  fun i => mlpRow (rowOf x (i 0)) (rowOf a (i 0)) w1 b1 w2 b2 (i 1)

theorem mlp_apply {R H : ℕ} (x a : Mat R H) (w1 : Mat H H) (b1 : Vect H) (w2 : Mat H H) (b2 : Vect H)
    (p : Fin R) (q : Fin H) :
    mlp x a w1 b1 w2 b2 (ix2 p q) = mlpRow (rowOf x p) (rowOf a p) w1 b1 w2 b2 q := rfl

/-- Row locality: if row `p` of the blocks `xb`, `ab` is row `r` of the arrays `x`, `a`, the layer of the blocks at
    `(p, q)` is the layer of the arrays at `(r, q)`. -/
theorem mlp_of_rows {B R H : ℕ} (xb ab : Mat B H) (x a : Mat R H) (w1 : Mat H H) (b1 : Vect H) (w2 : Mat H H)
    (b2 : Vect H) (p : Fin B) (r : Fin R) (q : Fin H)
    (hx : ∀ k : Fin H, xb (ix2 p k) = x (ix2 r k)) (ha : ∀ k : Fin H, ab (ix2 p k) = a (ix2 r k)) :
    mlp xb ab w1 b1 w2 b2 (ix2 p q) = mlp x a w1 b1 w2 b2 (ix2 r q) := by
  rw [mlp_apply, mlp_apply]
  have ex : rowOf xb p = rowOf x r := funext hx
  have ea : rowOf ab p = rowOf a r := funext ha
  rw [ex, ea]

end Cert.Gin

end
-- ==== Proof.GinBlock.lean ====
/-
  What one grid point of the kernel computes, read at an entry in exact arithmetic.

  The body loads a block of 2000 rows of the features and of the aggregate, the two 128 by 128 weight matrices and
  the two bias vectors, and stores one block of 2000 rows. Read at the entry `(p, q)` of the block, the stored value
  is the layer (`Cert.Gin.mlpRow`) of row `p` of the two row blocks: each matrix product into a zero accumulator is
  a sum over the contracted coordinate, the bias laid out as one row and repeated over the rows reads the vector at the
  column, the rectifier is a maximum with zero, and narrowing to a shorter float format changes nothing.
-/
import proofs.«150625_j53979148976510_1_alg».proof.Proof.Gen.KernelIdeal.Skeleton
import proofs.«150625_j53979148976510_1_alg».proof.Proof.LibPlainDot
import proofs.«150625_j53979148976510_1_alg».proof.Proof.LibVectorReads
import proofs.«150625_j53979148976510_1_alg».proof.Proof.GinSpec
import Idealize.ShloMosaic.Lib.Pipeline.Value

noncomputable section

open scoped BigOperators

namespace Cert.KernelIdeal.GinBlock

open Cert.KernelIdeal Cert.KernelIdeal.Gen Idealize.ShloMosaic Idealize.ShloMosaic.ValueIdx Cert.LibRowOps Cert.Gin

/-- The block product's dimension numbers are the plain ones: rows from the output, the contracted coordinate last on
    the left and first on the right. -/
theorem dot_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem dot_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A product of a narrowed block with a narrowed matrix into the zero accumulator, plus a bias vector repeated over
    the rows, rectified against a splat of zero, at `(p, q)`: the rectified affine map of row `p`. -/
theorem dense_relu_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (w : FVec Ideal ⟨2, ![K, N]⟩ .f32) (hlt : FTy.bf16.bits < FTy.f32.bits)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    maximumf (addf (matmul D none (truncf .bf16 x hlt) (truncf .bf16 w hlt) (constant ⟨2, ![R, N]⟩ .f32 0x00000000#32))
          (broadcastTo ⟨2, ![R, N]⟩ (shapeCast ⟨2, ![1, N]⟩ b hc) hb))
        (broadcast ⟨2, ![R, N]⟩ (Scalar.ofBits (F := Ideal) .f32 0x00000000#32)) (ix2 p q)
      = relu (affine (rowOf x p) w b) q := by
  show max (FloatOps.matmul D none (truncf .bf16 x hlt) (truncf .bf16 w hlt) (constant ⟨2, ![R, N]⟩ .f32 0x00000000#32) (ix2 p q)
      + broadcastTo ⟨2, ![R, N]⟩ (shapeCast ⟨2, ![1, N]⟩ b hc) hb (ix2 p q)) (Ideal.ofBits .f32 0x00000000#32) = _
  rw [Cert.LibPlainDot.matmul_zero_plain D hr hs hl0 hl1 hr0 hr1, Cert.LibVectorReads.bias_rows_apply]
  rfl

/-- The first grid's stored block at `(p, q)`. -/
theorem pay0_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k0_pay1 (F := Ideal) x0 x1 x2 x3 x4 x5 (ix2 p q) = mlpRow (rowOf x0 p) (rowOf x1 p) x2 x3 x4 x5 q := by
  unfold k0_pay1
  simp only [shapeCast_self]
  refine (dense_relu_apply dot_S2000x128_S128x128_S2000x128_1_0_0_1_n_n rfl rfl dot_l0 dot_l1 dot_r0 dot_r1 _ x4 _ x5 _ _ p q).trans ?_
  unfold mlpRow
  refine congrArg (fun r => relu (affine r x4 x5) q) ?_
  funext k
  exact dense_relu_apply dot_S2000x128_S128x128_S2000x128_1_0_0_1_n_n rfl rfl dot_l0 dot_l1 dot_r0 dot_r1 _ x2 _ x3 _ _ p k

/-- The second grid's stored block at `(p, q)`. -/
theorem pay1_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k1_pay1 (F := Ideal) x0 x1 x2 x3 x4 x5 (ix2 p q) = mlpRow (rowOf x0 p) (rowOf x1 p) x2 x3 x4 x5 q := by
  unfold k1_pay1
  simp only [shapeCast_self]
  refine (dense_relu_apply dot_S2000x128_S128x128_S2000x128_1_0_0_1_n_n rfl rfl dot_l0 dot_l1 dot_r0 dot_r1 _ x4 _ x5 _ _ p q).trans ?_
  unfold mlpRow
  refine congrArg (fun r => relu (affine r x4 x5) q) ?_
  funext k
  exact dense_relu_apply dot_S2000x128_S128x128_S2000x128_1_0_0_1_n_n rfl rfl dot_l0 dot_l1 dot_r0 dot_r1 _ x2 _ x3 _ _ p k

/-- The third grid's stored block at `(p, q)`. -/
theorem pay2_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k2_pay1 (F := Ideal) x0 x1 x2 x3 x4 x5 (ix2 p q) = mlpRow (rowOf x0 p) (rowOf x1 p) x2 x3 x4 x5 q := by
  unfold k2_pay1
  simp only [shapeCast_self]
  refine (dense_relu_apply dot_S2000x128_S128x128_S2000x128_1_0_0_1_n_n rfl rfl dot_l0 dot_l1 dot_r0 dot_r1 _ x4 _ x5 _ _ p q).trans ?_
  unfold mlpRow
  refine congrArg (fun r => relu (affine r x4 x5) q) ?_
  funext k
  exact dense_relu_apply dot_S2000x128_S128x128_S2000x128_1_0_0_1_n_n rfl rfl dot_l0 dot_l1 dot_r0 dot_r1 _ x2 _ x3 _ _ p k

end Cert.KernelIdeal.GinBlock

end
-- ==== Proof.GinRegion0.lean ====
/-
  Grid 0 of the program as one whole-array function.

  The grid has 25 points; point `t` stages rows `2000 t … 2000 t + 1999` of the features and of the aggregate, the
  whole of the two weight matrices and bias vectors, and writes rows `2000 t … 2000 t + 1999` of the result. By row
  locality of the layer (`Cert.Gin.mlp_of_rows`) what point `t` writes back is block `t` of the layer of the WHOLE
  arrays; the 25 blocks cover the 50000 rows, so after the grid the result array is the layer of the arrays the grid
  found on entry. Everything is stated for arbitrary entry contents `V`.
-/
import proofs.«150625_j53979148976510_1_alg».proof.Proof.Gen.KernelIdeal.Frame
import proofs.«150625_j53979148976510_1_alg».proof.Proof.GinBlock
import Idealize.ShloMosaic.Lib.Pipeline.Value

set_option maxRecDepth 16384

noncomputable section

namespace Cert.KernelIdeal.GinRegion0

open Cert.KernelIdeal Cert.KernelIdeal.Gen Idealize.ShloMosaic Idealize.ShloMosaic.TcCoe Idealize.SL.Sem
open Idealize.ShloMosaic.ValueIdx Cert.LibRowOps Cert.Gin
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block row `t`, the four others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 25 := by
  have h := t.isLt
  have e : cfg0.N = 25 := N_0
  omega

/-- The layer of the arrays the grid finds on entry. -/
abbrev G (c : Dev nD) : S50000x128.Idx → EReal :=
  mlp (V c main_arg0 : S50000x128.Idx → EReal) (V c main_v13 : S50000x128.Idx → EReal) (V c main_v15 : S128x128.Idx → EReal)
    (V c main_v17 : S128.Idx → EReal) (V c main_v19 : S128x128.Idx → EReal) (V c main_v21 : S128.Idx → EReal)

/-- Entry `(p, k)` of the features' block at point `t` is entry `(2000 t + p, k)` of the features. -/
theorem xblk_apply (c : Dev nD) (t : Fin cfg0.N) (p : Fin 2000) (k : Fin 128) (r : Fin 50000)
    (hr : r.val = 2000 * t.val + p.val) :
    (iblk0 V c 0 t : Vec Ideal S2000x128 .f32) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The same for the aggregate's block. -/
theorem ablk_apply (c : Dev nD) (t : Fin cfg0.N) (p : Fin 2000) (k : Fin 128) (r : Fin 50000)
    (hr : r.val = 2000 * t.val + p.val) :
    (iblk0 V c 1 t : Vec Ideal S2000x128 .f32) (ix2 p k) = (V c main_v13 : S50000x128.Idx → EReal) (ix2 r k) := by
  obtain ⟨-, -, e0, e1, -⟩ := idx_facts t
  unfold iblk0
  rw [View.read_apply]
  show V c main_v13 _ = V c main_v13 _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- The four whole-array windows: the block at every point is the array. -/
theorem w1blk (c : Dev nD) (t : Fin cfg0.N) :
    (iblk0 V c 2 t : Vec Ideal S128x128 .f32) = (V c main_v15 : S128x128.Idx → EReal) := by
  obtain ⟨-, -, -, -, e0, e1, -⟩ := idx_facts t
  funext y
  unfold iblk0
  rw [View.read_apply]
  show V c main_v15 _ = V c main_v15 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem b1blk (c : Dev nD) (t : Fin cfg0.N) :
    (iblk0 V c 3 t : Vec Ideal S128 .f32) = (V c main_v17 : S128.Idx → EReal) := by
  obtain ⟨-, -, -, -, -, -, e0, -⟩ := idx_facts t
  funext y
  unfold iblk0
  rw [View.read_apply]
  show V c main_v17 _ = V c main_v17 _
  congr 1
  funext a
  apply Fin.ext
  match a with
  | ⟨0, _⟩ => show win0_3.index t 0 * 128 + 1 * (y 0).val = (y 0).val; rw [e0]; omega

theorem w2blk (c : Dev nD) (t : Fin cfg0.N) :
    (iblk0 V c 4 t : Vec Ideal S128x128 .f32) = (V c main_v19 : S128x128.Idx → EReal) := by
  obtain ⟨-, -, -, -, -, -, -, e0, e1, -⟩ := idx_facts t
  funext y
  unfold iblk0
  rw [View.read_apply]
  show V c main_v19 _ = V c main_v19 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem b2blk (c : Dev nD) (t : Fin cfg0.N) :
    (iblk0 V c 5 t : Vec Ideal S128 .f32) = (V c main_v21 : S128.Idx → EReal) := by
  obtain ⟨-, -, -, -, -, -, -, -, -, e0, -⟩ := idx_facts t
  funext y
  unfold iblk0
  rw [View.read_apply]
  show V c main_v21 _ = V c main_v21 _
  congr 1
  funext a
  apply Fin.ext
  match a with
  | ⟨0, _⟩ => show win0_5.index t 0 * 128 + 1 * (y 0).val = (y 0).val; rw [e0]; omega

/-- WHAT POINT `t` WRITES BACK is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2, View.ld_unit_zero (S := S128) hz1]
  rw [w1blk V c t, b1blk V c t, w2blk V c t, b2blk V c t]
  obtain ⟨-, -, -, -, -, -, -, -, -, -, e0, e1⟩ := idx_facts t
  have ht := t_lt t
  funext j
  obtain ⟨p, q, rfl⟩ : ∃ (p : Fin 2000) (q : Fin 128), j = ix2 p q := ⟨j 0, j 1, eq_ix2 j⟩
  have hemb : ((cfg0.win 6).blk t).view.emb (ix2 p q) = ix2 (⟨2000 * t.val + p.val, by have := p.isLt; omega⟩ : Fin 50000) q := by
    funext a
    apply Fin.ext
    match a with
    | ⟨0, _⟩ => show win0_6.index t 0 * 2000 + 1 * p.val = 2000 * t.val + p.val; rw [e0]; omega
    | ⟨1, _⟩ => show win0_6.index t 1 * 128 + 1 * q.val = q.val; rw [e1]; omega
  show k0_pay1 (F := Ideal) (iblk0 V c 0 t) (iblk0 V c 1 t) _ _ _ _ (ix2 p q) = G V c (((cfg0.win 6).blk t).view.emb (ix2 p q))
  rw [hemb, Cert.KernelIdeal.GinBlock.pay0_apply]
  unfold G
  rw [mlp_apply]
  congr 1
  · funext k; exact xblk_apply V c t p k _ rfl
  · funext k; exact ablk_apply V c t p k _ rfl

/-- The 25 blocks cover the result array. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, e0, e1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0]; show (i 0).val / 2000 * 2000 ≤ (i 0).val ∧ (i 0).val < (i 0).val / 2000 * 2000 + 2000; omega
  | ⟨1, _⟩ => show win0_6.index t (1 : Fin 2) * 128 ≤ (i 1).val ∧ (i 1).val < win0_6.index t (1 : Fin 2) * 128 + 128; rw [e1]; omega

/-- THE RESULT ARRAY after the grid: the layer of the arrays it found on entry. -/
theorem final (c : Dev nD) : (dat0 V c).arrAt 6 cfg0.N = G V c :=
  (dat0 V c).arrAt_eq_of_cover 6 (G V c) (fun t _ => flushed_eq V c t) cover

end Cert.KernelIdeal.GinRegion0

end
-- ==== Proof.GinRegion1.lean ====
/-
  Grid 1 of the program as one whole-array function.

  The grid has 25 points; point `t` stages rows `2000 t … 2000 t + 1999` of the features and of the aggregate, the
  whole of the two weight matrices and bias vectors, and writes rows `2000 t … 2000 t + 1999` of the result. By row
  locality of the layer (`Cert.Gin.mlp_of_rows`) what point `t` writes back is block `t` of the layer of the WHOLE
  arrays; the 25 blocks cover the 50000 rows, so after the grid the result array is the layer of the arrays the grid
  found on entry. Everything is stated for arbitrary entry contents `V`.
-/
import proofs.«150625_j53979148976510_1_alg».proof.Proof.Gen.KernelIdeal.Frame
import proofs.«150625_j53979148976510_1_alg».proof.Proof.GinBlock
import Idealize.ShloMosaic.Lib.Pipeline.Value

set_option maxRecDepth 16384

noncomputable section

namespace Cert.KernelIdeal.GinRegion1

open Cert.KernelIdeal Cert.KernelIdeal.Gen Idealize.ShloMosaic Idealize.ShloMosaic.TcCoe Idealize.SL.Sem
open Idealize.ShloMosaic.ValueIdx Cert.LibRowOps Cert.Gin
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block row `t`, the four others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 25 := by
  have h := t.isLt
  have e : cfg1.N = 25 := N_1
  omega

/-- The layer of the arrays the grid finds on entry. -/
abbrev G (c : Dev nD) : S50000x128.Idx → EReal :=
  mlp (V c main_v22 : S50000x128.Idx → EReal) (V c main_v32 : S50000x128.Idx → EReal) (V c main_v34 : S128x128.Idx → EReal)
    (V c main_v36 : S128.Idx → EReal) (V c main_v38 : S128x128.Idx → EReal) (V c main_v40 : S128.Idx → EReal)

/-- Entry `(p, k)` of the features' block at point `t` is entry `(2000 t + p, k)` of the features. -/
theorem xblk_apply (c : Dev nD) (t : Fin cfg1.N) (p : Fin 2000) (k : Fin 128) (r : Fin 50000)
    (hr : r.val = 2000 * t.val + p.val) :
    (iblk1 V c 0 t : Vec Ideal S2000x128 .f32) (ix2 p k) = (V c main_v22 : S50000x128.Idx → EReal) (ix2 r k) := by
  obtain ⟨e0, e1, -⟩ := idx_facts t
  unfold iblk1
  rw [View.read_apply]
  show V c main_v22 _ = V c main_v22 _
  congr 1
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- The same for the aggregate's block. -/
theorem ablk_apply (c : Dev nD) (t : Fin cfg1.N) (p : Fin 2000) (k : Fin 128) (r : Fin 50000)
    (hr : r.val = 2000 * t.val + p.val) :
    (iblk1 V c 1 t : Vec Ideal S2000x128 .f32) (ix2 p k) = (V c main_v32 : S50000x128.Idx → EReal) (ix2 r k) := by
  obtain ⟨-, -, e0, e1, -⟩ := idx_facts t
  unfold iblk1
  rw [View.read_apply]
  show V c main_v32 _ = V c main_v32 _
  congr 1
  funext a
  apply Fin.ext
  match a with
  | ⟨0, _⟩ => show win1_1.index t 0 * 2000 + 1 * p.val = r.val; rw [e0, hr]; omega
  | ⟨1, _⟩ => show win1_1.index t 1 * 128 + 1 * k.val = k.val; rw [e1]; omega

/-- The four whole-array windows: the block at every point is the array. -/
theorem w1blk (c : Dev nD) (t : Fin cfg1.N) :
    (iblk1 V c 2 t : Vec Ideal S128x128 .f32) = (V c main_v34 : S128x128.Idx → EReal) := by
  obtain ⟨-, -, -, -, e0, e1, -⟩ := idx_facts t
  funext y
  unfold iblk1
  rw [View.read_apply]
  show V c main_v34 _ = V c main_v34 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem b1blk (c : Dev nD) (t : Fin cfg1.N) :
    (iblk1 V c 3 t : Vec Ideal S128 .f32) = (V c main_v36 : S128.Idx → EReal) := by
  obtain ⟨-, -, -, -, -, -, e0, -⟩ := idx_facts t
  funext y
  unfold iblk1
  rw [View.read_apply]
  show V c main_v36 _ = V c main_v36 _
  congr 1
  funext a
  apply Fin.ext
  match a with
  | ⟨0, _⟩ => show win1_3.index t 0 * 128 + 1 * (y 0).val = (y 0).val; rw [e0]; omega

theorem w2blk (c : Dev nD) (t : Fin cfg1.N) :
    (iblk1 V c 4 t : Vec Ideal S128x128 .f32) = (V c main_v38 : S128x128.Idx → EReal) := by
  obtain ⟨-, -, -, -, -, -, -, e0, e1, -⟩ := idx_facts t
  funext y
  unfold iblk1
  rw [View.read_apply]
  show V c main_v38 _ = V c main_v38 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

theorem b2blk (c : Dev nD) (t : Fin cfg1.N) :
    (iblk1 V c 5 t : Vec Ideal S128 .f32) = (V c main_v40 : S128.Idx → EReal) := by
  obtain ⟨-, -, -, -, -, -, -, -, -, e0, -⟩ := idx_facts t
  funext y
  unfold iblk1
  rw [View.read_apply]
  show V c main_v40 _ = V c main_v40 _
  congr 1
  funext a
  apply Fin.ext
  match a with
  | ⟨0, _⟩ => show win1_5.index t 0 * 128 + 1 * (y 0).val = (y 0).val; rw [e0]; omega

/-- WHAT POINT `t` WRITES BACK is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  rw [w1blk V c t, b1blk V c t, w2blk V c t, b2blk V c t]
  obtain ⟨-, -, -, -, -, -, -, -, -, -, e0, e1⟩ := idx_facts t
  have ht := t_lt t
  funext j
  obtain ⟨p, q, rfl⟩ : ∃ (p : Fin 2000) (q : Fin 128), j = ix2 p q := ⟨j 0, j 1, eq_ix2 j⟩
  have hemb : ((cfg1.win 6).blk t).view.emb (ix2 p q) = ix2 (⟨2000 * t.val + p.val, by have := p.isLt; omega⟩ : Fin 50000) q := by
    funext a
    apply Fin.ext
    match a with
    | ⟨0, _⟩ => show win1_6.index t 0 * 2000 + 1 * p.val = 2000 * t.val + p.val; rw [e0]; omega
    | ⟨1, _⟩ => show win1_6.index t 1 * 128 + 1 * q.val = q.val; rw [e1]; omega
  show k1_pay1 (F := Ideal) (iblk1 V c 0 t) (iblk1 V c 1 t) _ _ _ _ (ix2 p q) = G V c (((cfg1.win 6).blk t).view.emb (ix2 p q))
  rw [hemb, Cert.KernelIdeal.GinBlock.pay1_apply]
  unfold G
  rw [mlp_apply]
  congr 1
  · funext k; exact xblk_apply V c t p k _ rfl
  · funext k; exact ablk_apply V c t p k _ rfl

/-- The 25 blocks cover the result array. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, -, -, -, -, -, -, e0, e1⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [e0]; show (i 0).val / 2000 * 2000 ≤ (i 0).val ∧ (i 0).val < (i 0).val / 2000 * 2000 + 2000; omega
  | ⟨1, _⟩ => show win1_6.index t (1 : Fin 2) * 128 ≤ (i 1).val ∧ (i 1).val < win1_6.index t (1 : Fin 2) * 128 + 128; rw [e1]; omega

/-- THE RESULT ARRAY after the grid: the layer of the arrays it found on entry. -/
theorem final (c : Dev nD) : (dat1 V c).arrAt 6 cfg1.N = G V c :=
  (dat1 V c).arrAt_eq_of_cover 6 (G V c) (fun t _ => flushed_eq V c t) cover

end Cert.KernelIdeal.GinRegion1

end
-- ==== Proof.GinRegion2.lean ====
/-
  Grid 2 of the program as one whole-array function.

  The grid has 25 points; point `t` stages rows `2000 t … 2000 t + 1999` of the features and of the aggregate, the
  whole of the two weight matrices and bias vectors, and writes rows `2000 t … 2000 t + 1999` of the result. By row
  locality of the layer (`Cert.Gin.mlp_of_rows`) what point `t` writes back is block `t` of the layer of the WHOLE
  arrays; the 25 blocks cover the 50000 rows, so after the grid the result array is the layer of the arrays the grid
  found on entry. Everything is stated for arbitrary entry contents `V`.
-/
import proofs.«150625_j53979148976510_1_alg».proof.Proof.Gen.KernelIdeal.Frame
import proofs.«150625_j53979148976510_1_alg».proof.Proof.GinBlock
import Idealize.ShloMosaic.Lib.Pipeline.Value

set_option maxRecDepth 16384

noncomputable section

namespace Cert.KernelIdeal.GinRegion2

open Cert.KernelIdeal Cert.KernelIdeal.Gen Idealize.ShloMosaic Idealize.ShloMosaic.TcCoe Idealize.SL.Sem
open Idealize.ShloMosaic.ValueIdx Cert.LibRowOps Cert.Gin
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block row `t`, the four others at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem t_lt (t : Fin cfg2.N) : t.val < 25 := by
  have h := t.isLt
  have e : cfg2.N = 25 := N_2
  omega

/-- The layer of the arrays the grid finds on entry. -/
abbrev G (c : Dev nD) : S50000x128.Idx → EReal :=
  mlp (V c main_v41 : S50000x128.Idx → EReal) (V c main_v51 : S50000x128.Idx → EReal) (V c main_v53 : S128x128.Idx → EReal)
    (V c main_v55 : S128.Idx → EReal) (V c main_v57 : S128x128.Idx → EReal) (V c main_v59 : S128.Idx → EReal)

/-- Entry `(p, k)` of the features' block at point `t` is entry `(2000 t + p, k)` of the features. -/
theorem xblk_apply (c : Dev nD) (t : Fin cfg2.N) (p : Fin 2000) (k : Fin 128) (r : Fin 50000)
    (hr : r.val = 2000 * t.val + p.val) :
    (iblk2 V c 0 t : Vec Ideal S2000x128 .f32) (ix2 p k) = (V c main_v41 : S50000x128.Idx → EReal) (ix2 r k) := by
  obtain ⟨e0, e1, -⟩ := idx_facts t
  unfold iblk2
  rw [View.read_apply]
  show V c main_v41 _ = V c main_v41 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The same for the aggregate's block. -/
theorem ablk_apply (c : Dev nD) (t : Fin cfg2.N) (p : Fin 2000) (k : Fin 128) (r : Fin 50000)
    (hr : r.val = 2000 * t.val + p.val) :
    (iblk2 V c 1 t : Vec Ideal S2000x128 .f32) (ix2 p k) = (V c main_v51 : S50000x128.Idx → EReal) (ix2 r k) := by
  obtain ⟨-, -, e0, e1, -⟩ := idx_facts t
  unfold iblk2
  rw [View.read_apply]
  show V c main_v51 _ = V c main_v51 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- The four whole-array windows: the block at every point is the array. -/
theorem w1blk (c : Dev nD) (t : Fin cfg2.N) :
    (iblk2 V c 2 t : Vec Ideal S128x128 .f32) = (V c main_v53 : S128x128.Idx → EReal) := by
  obtain ⟨-, -, -, -, e0, e1, -⟩ := idx_facts t
  funext y
  unfold iblk2
  rw [View.read_apply]
  show V c main_v53 _ = V c main_v53 _
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

theorem b1blk (c : Dev nD) (t : Fin cfg2.N) :
    (iblk2 V c 3 t : Vec Ideal S128 .f32) = (V c main_v55 : S128.Idx → EReal) := by
  obtain ⟨-, -, -, -, -, -, e0, -⟩ := idx_facts t
  funext y
  unfold iblk2
  rw [View.read_apply]
  show V c main_v55 _ = V c main_v55 _
  congr 1
  funext a
  apply Fin.ext
  match a with
  | ⟨0, _⟩ => show win2_3.index t 0 * 128 + 1 * (y 0).val = (y 0).val; rw [e0]; omega

theorem w2blk (c : Dev nD) (t : Fin cfg2.N) :
    (iblk2 V c 4 t : Vec Ideal S128x128 .f32) = (V c main_v57 : S128x128.Idx → EReal) := by
  obtain ⟨-, -, -, -, -, -, -, e0, e1, -⟩ := idx_facts t
  funext y
  unfold iblk2
  rw [View.read_apply]
  show V c main_v57 _ = V c main_v57 _
  congr 1
  funext a
  apply Fin.ext
  match a with
  | ⟨0, _⟩ => show win2_4.index t 0 * 128 + 1 * (y 0).val = (y 0).val; rw [e0]; omega
  | ⟨1, _⟩ => show win2_4.index t 1 * 128 + 1 * (y 1).val = (y 1).val; rw [e1]; omega

theorem b2blk (c : Dev nD) (t : Fin cfg2.N) :
    (iblk2 V c 5 t : Vec Ideal S128 .f32) = (V c main_v59 : S128.Idx → EReal) := by
  obtain ⟨-, -, -, -, -, -, -, -, -, e0, -⟩ := idx_facts t
  funext y
  unfold iblk2
  rw [View.read_apply]
  show V c main_v59 _ = V c main_v59 _
  congr 1
  funext a
  apply Fin.ext
  match a with
  | ⟨0, _⟩ => show win2_5.index t 0 * 128 + 1 * (y 0).val = (y 0).val; rw [e0]; omega

/-- WHAT POINT `t` WRITES BACK is block `t` of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S128) hz1]
  rw [w1blk V c t, b1blk V c t, w2blk V c t, b2blk V c t]
  obtain ⟨-, -, -, -, -, -, -, -, -, -, e0, e1⟩ := idx_facts t
  have ht := t_lt t
  funext j
  obtain ⟨p, q, rfl⟩ : ∃ (p : Fin 2000) (q : Fin 128), j = ix2 p q := ⟨j 0, j 1, eq_ix2 j⟩
  have hemb : ((cfg2.win 6).blk t).view.emb (ix2 p q) = ix2 (⟨2000 * t.val + p.val, by have := p.isLt; omega⟩ : Fin 50000) q := by
    funext a
    apply Fin.ext
    match a with
    | ⟨0, _⟩ => show win2_6.index t 0 * 2000 + 1 * p.val = 2000 * t.val + p.val; rw [e0]; omega
    | ⟨1, _⟩ => show win2_6.index t 1 * 128 + 1 * q.val = q.val; rw [e1]; omega
  show k2_pay1 (F := Ideal) (iblk2 V c 0 t) (iblk2 V c 1 t) _ _ _ _ (ix2 p q) = G V c (((cfg2.win 6).blk t).view.emb (ix2 p q))
  rw [hemb, Cert.KernelIdeal.GinBlock.pay2_apply]
  unfold G
  rw [mlp_apply]
  congr 1
  · funext k; exact xblk_apply V c t p k _ rfl
  · funext k; exact ablk_apply V c t p k _ rfl

/-- The 25 blocks cover the result array. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v60).slice (win2_6.rect t)).set ↔ _
  rw [View.set_slice_whole, Rect.mem_set_unit]
  exact Iff.rfl

theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨-, -, -, -, -, -, -, -, -, -, e0, e1⟩ := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; rw [e0]; show (i 0).val / 2000 * 2000 ≤ (i 0).val ∧ (i 0).val < (i 0).val / 2000 * 2000 + 2000; omega
  | ⟨1, _⟩ => show win2_6.index t (1 : Fin 2) * 128 ≤ (i 1).val ∧ (i 1).val < win2_6.index t (1 : Fin 2) * 128 + 128; rw [e1]; omega

/-- THE RESULT ARRAY after the grid: the layer of the arrays it found on entry. -/
theorem final (c : Dev nD) : (dat2 V c).arrAt 6 cfg2.N = G V c :=
  (dat2 V c).arrAt_eq_of_cover 6 (G V c) (fun t _ => flushed_eq V c t) cover

end Cert.KernelIdeal.GinRegion2

end
-- ==== Proof.GinFold.lean ====
/-
  The result of the program as three layers, one after the other.

  Between the grids the host computes, from the current node features `x` and the edge list, the aggregate
  `agg x`: the rows of `x` at the edges' sources (a negative source index counted from the end) summed into the rows
  at the edges' targets, starting from zero. It also cuts layer `l`'s weight matrices and bias vectors out of the
  stacked arguments. Each grid then leaves the layer (`Cert.Gin.mlp`) of what it finds on entry. Walking the
  boundaries from the last one back to the launch memory — a buffer no operation of a stretch writes keeps its contents
  over the stretch, and a grid changes only its own result array — names the program's result as
  `layer₂ (layer₁ (layer₀ features))`. The aggregate is never opened: it is one function applied to the features.
-/
import proofs.«150625_j53979148976510_1_alg».proof.Proof.Gen.KernelIdeal.Frame
import proofs.«150625_j53979148976510_1_alg».proof.Proof.GinRegion0
import proofs.«150625_j53979148976510_1_alg».proof.Proof.GinRegion1
import proofs.«150625_j53979148976510_1_alg».proof.Proof.GinRegion2
import Idealize.ShloMosaic.Lib.StableHlo.Run

set_option maxRecDepth 16384

noncomputable section

namespace Cert.KernelIdeal.GinFold

open Cert.KernelIdeal Cert.KernelIdeal.Gen Idealize.ShloMosaic Idealize.ShloMosaic.TcCoe Idealize.SL.Sem
open Idealize.ShloMosaic.StableHlo Cert.Gin

abbrev Arr := FVec Ideal S50000x128 .f32
abbrev Edges := IVec S2x800000 32
abbrev Ends := IVec S800000 32
abbrev Mats := FVec Ideal S3x128x128 .f32
abbrev Vecs := FVec Ideal S3x128 .f32
abbrev Mat1 := FVec Ideal S128x128 .f32
abbrev Vec1 := FVec Ideal S128 .f32

/-- The edges' sources: row 0 of the edge list. -/
def srcOf (ei : Edges) : Ends :=
  shapeCast _ (extractStridedSlice S1x800000 ![0, 0] ei slices_S2x800000_S1x800000_0_0) shapeCasts_S1x800000_S800000
/-- The edges' targets: row 1 of the edge list. -/
def dstOf (ei : Edges) : Ends :=
  shapeCast _ (extractStridedSlice S1x800000 ![1, 0] ei slices_S2x800000_S1x800000_1_0) shapeCasts_S1x800000_S800000

/-- The aggregate: the rows of `x` gathered at the sources (a negative index wrapped by the number of nodes) and
    summed into the rows at the targets, from zero. -/
def agg (x : Arr) (src dst : Ends) : Arr :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One matrix of a stack of three, and one vector of a stack of three. -/
def matOf (W : Mats) (s : Fin 3 → Nat) (h : S3x128x128.Slices s S1x128x128) : Mat1 :=
  shapeCast _ (extractStridedSlice S1x128x128 s W h) shapeCasts_S1x128x128_S128x128
def vecOf (b : Vecs) (s : Fin 2 → Nat) (h : S3x128.Slices s S1x128) : Vec1 :=
  shapeCast _ (extractStridedSlice S1x128 s b h) shapeCasts_S1x128_S128

/-- One layer: the dense half applied to the features and their aggregate. -/
def layer (x : Arr) (ei : Edges) (w1 : Mat1) (b1 : Vec1) (w2 : Mat1) (b2 : Vec1) : Arr :=
  mlp (x : S50000x128.Idx → EReal) (agg x (srcOf ei) (dstOf ei) : S50000x128.Idx → EReal) (w1 : S128x128.Idx → EReal)
    (b1 : S128.Idx → EReal) (w2 : S128x128.Idx → EReal) (b2 : S128.Idx → EReal)

/-- The three layers, one after the other, as a function of the six arguments. -/
def net (x : Arr) (ei : Edges) (W1 : Mats) (B1 : Vecs) (W2 : Mats) (B2 : Vecs) : Arr :=
  layer (layer (layer x ei
        (matOf W1 ![0, 0, 0] slices_S3x128x128_S1x128x128_0_0_0) (vecOf B1 ![0, 0] slices_S3x128_S1x128_0_0)
        (matOf W2 ![0, 0, 0] slices_S3x128x128_S1x128x128_0_0_0) (vecOf B2 ![0, 0] slices_S3x128_S1x128_0_0)) ei
      (matOf W1 ![1, 0, 0] slices_S3x128x128_S1x128x128_1_0_0) (vecOf B1 ![1, 0] slices_S3x128_S1x128_1_0)
      (matOf W2 ![1, 0, 0] slices_S3x128x128_S1x128x128_1_0_0) (vecOf B2 ![1, 0] slices_S3x128_S1x128_1_0)) ei
    (matOf W1 ![2, 0, 0] slices_S3x128x128_S1x128x128_2_0_0) (vecOf B1 ![2, 0] slices_S3x128_S1x128_2_0)
    (matOf W2 ![2, 0, 0] slices_S3x128x128_S1x128x128_2_0_0) (vecOf B2 ![2, 0] slices_S3x128_S1x128_2_0)

variable (m : (ℓ : Loc nD τ sig) → Buf (Elt Ideal) ℓ) (ρ : Dev nD → PrngReg)

/-- The features after layer 0, 1, 2. -/
def X1 (c : Dev nD) : Arr :=
  layer (m ((c : Thread nD τ).loc main_arg0)) (m ((c : Thread nD τ).loc main_arg1))
    (matOf (m ((c : Thread nD τ).loc main_arg2)) ![0, 0, 0] slices_S3x128x128_S1x128x128_0_0_0)
    (vecOf (m ((c : Thread nD τ).loc main_arg3)) ![0, 0] slices_S3x128_S1x128_0_0)
    (matOf (m ((c : Thread nD τ).loc main_arg4)) ![0, 0, 0] slices_S3x128x128_S1x128x128_0_0_0)
    (vecOf (m ((c : Thread nD τ).loc main_arg5)) ![0, 0] slices_S3x128_S1x128_0_0)
def X2 (c : Dev nD) : Arr :=
  layer (X1 m c) (m ((c : Thread nD τ).loc main_arg1))
    (matOf (m ((c : Thread nD τ).loc main_arg2)) ![1, 0, 0] slices_S3x128x128_S1x128x128_1_0_0)
    (vecOf (m ((c : Thread nD τ).loc main_arg3)) ![1, 0] slices_S3x128_S1x128_1_0)
    (matOf (m ((c : Thread nD τ).loc main_arg4)) ![1, 0, 0] slices_S3x128x128_S1x128x128_1_0_0)
    (vecOf (m ((c : Thread nD τ).loc main_arg5)) ![1, 0] slices_S3x128_S1x128_1_0)
def X3 (c : Dev nD) : Arr :=
  layer (X2 m c) (m ((c : Thread nD τ).loc main_arg1))
    (matOf (m ((c : Thread nD τ).loc main_arg2)) ![2, 0, 0] slices_S3x128x128_S1x128x128_2_0_0)
    (vecOf (m ((c : Thread nD τ).loc main_arg3)) ![2, 0] slices_S3x128_S1x128_2_0)
    (matOf (m ((c : Thread nD τ).loc main_arg4)) ![2, 0, 0] slices_S3x128x128_S1x128x128_2_0_0)
    (vecOf (m ((c : Thread nD τ).loc main_arg5)) ![2, 0] slices_S3x128_S1x128_2_0)

theorem X3_eq_net (c : Dev nD) : X3 m c = net (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := rfl

/-! ## Before the first grid -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_v13 (c : Dev nD) : W1 m ρ c (Proc.devRef .tc main_v13)
    = agg (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results <;> rfl
theorem W1_v15 (c : Dev nD) : W1 m ρ c (Proc.devRef .tc main_v15)
    = matOf (m ((c : Thread nD τ).loc main_arg2)) ![0, 0, 0] slices_S3x128x128_S1x128x128_0_0_0 := by
  show StableHlo.after hostOps0 (W0 m ρ c) (Proc.devRef .tc main_v15) = _
  after_results <;> rfl
theorem W1_v17 (c : Dev nD) : W1 m ρ c (Proc.devRef .tc main_v17)
    = vecOf (m ((c : Thread nD τ).loc main_arg3)) ![0, 0] slices_S3x128_S1x128_0_0 := by
  show StableHlo.after hostOps0 (W0 m ρ c) (Proc.devRef .tc main_v17) = _
  after_results <;> rfl
theorem W1_v19 (c : Dev nD) : W1 m ρ c (Proc.devRef .tc main_v19)
    = matOf (m ((c : Thread nD τ).loc main_arg4)) ![0, 0, 0] slices_S3x128x128_S1x128x128_0_0_0 := by
  show StableHlo.after hostOps0 (W0 m ρ c) (Proc.devRef .tc main_v19) = _
  after_results <;> rfl
theorem W1_v21 (c : Dev nD) : W1 m ρ c (Proc.devRef .tc main_v21)
    = vecOf (m ((c : Thread nD τ).loc main_arg5)) ![0, 0] slices_S3x128_S1x128_0_0 := by
  show StableHlo.after hostOps0 (W0 m ρ c) (Proc.devRef .tc main_v21) = _
  after_results <;> rfl

/-- After the first grid its result array holds layer 0 of the features. -/
theorem W2_v22 (c : Dev nD) : W2 m ρ c (Proc.devRef .tc main_v22) = X1 m c := by
  refine (W2_arr m ρ c 6).trans ?_
  rw [Cert.KernelIdeal.GinRegion0.final (V1 m ρ) c]
  show mlp (W1 m ρ c (Proc.devRef .tc main_arg0)) (W1 m ρ c (Proc.devRef .tc main_v13)) (W1 m ρ c (Proc.devRef .tc main_v15))
    (W1 m ρ c (Proc.devRef .tc main_v17)) (W1 m ρ c (Proc.devRef .tc main_v19)) (W1 m ρ c (Proc.devRef .tc main_v21)) = _
  rw [W1_arg0, W1_v13, W1_v15, W1_v17, W1_v19, W1_v21]
  rfl

/-! ## Between the first and the second grid -/

theorem W2_v1 (c : Dev nD) : W2 m ρ c (Proc.devRef .tc main_v1) = srcOf (m ((c : Thread nD τ).loc main_arg1)) := by
  refine (W2_of_ne m ρ c main_v1 (by decide)).trans ?_
  show StableHlo.after hostOps0 (W0 m ρ c) (Proc.devRef .tc main_v1) = _
  after_results <;> rfl
theorem W2_v3 (c : Dev nD) : W2 m ρ c (Proc.devRef .tc main_v3) = dstOf (m ((c : Thread nD τ).loc main_arg1)) := by
  refine (W2_of_ne m ρ c main_v3 (by decide)).trans ?_
  show StableHlo.after hostOps0 (W0 m ρ c) (Proc.devRef .tc main_v3) = _
  after_results <;> rfl
theorem W2_arg2 (c : Dev nD) : W2 m ρ c (Proc.devRef .tc main_arg2) = (m ((c : Thread nD τ).loc main_arg2)) := by
  refine (W2_of_ne m ρ c main_arg2 (by decide)).trans ?_
  show StableHlo.after hostOps0 (W0 m ρ c) (Proc.devRef .tc main_arg2) = _
  after_results <;> rfl
theorem W2_arg3 (c : Dev nD) : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results <;> rfl
theorem W2_arg4 (c : Dev nD) : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results <;> rfl
theorem W2_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results <;> rfl

theorem W3_v22 (c : Dev nD) : W3 m ρ c (Proc.devRef .tc main_v22) = X1 m c := by
  refine Eq.trans ?_ (W2_v22 m ρ c)
  show StableHlo.after hostOps1 (W2 m ρ c) (Proc.devRef .tc main_v22) = _
  after_results <;> rfl
theorem W3_v32 (c : Dev nD) : W3 m ρ c (Proc.devRef .tc main_v32)
    = agg (X1 m c) (srcOf (m ((c : Thread nD τ).loc main_arg1))) (dstOf (m ((c : Thread nD τ).loc main_arg1))) := by
  have h : W3 m ρ c (Proc.devRef .tc main_v32)
      = agg (W2 m ρ c (Proc.devRef .tc main_v22)) (W2 m ρ c (Proc.devRef .tc main_v1)) (W2 m ρ c (Proc.devRef .tc main_v3)) := by
    show StableHlo.after hostOps1 (W2 m ρ c) (Proc.devRef .tc main_v32) = _
    after_results <;> rfl
  rw [h, W2_v22, W2_v1, W2_v3]
theorem W3_v34 (c : Dev nD) : W3 m ρ c (Proc.devRef .tc main_v34) = matOf (m ((c : Thread nD τ).loc main_arg2)) ![1, 0, 0] slices_S3x128x128_S1x128x128_1_0_0 := by
  have h : W3 m ρ c (Proc.devRef .tc main_v34) = matOf (W2 m ρ c (Proc.devRef .tc main_arg2)) ![1, 0, 0] slices_S3x128x128_S1x128x128_1_0_0 := by
    show StableHlo.after hostOps1 (W2 m ρ c) (Proc.devRef .tc main_v34) = _
    after_results <;> rfl
  rw [h, W2_arg2]
theorem W3_v36 (c : Dev nD) : W3 m ρ c (Proc.devRef .tc main_v36) = vecOf (m ((c : Thread nD τ).loc main_arg3)) ![1, 0] slices_S3x128_S1x128_1_0 := by
  have h : W3 m ρ c (Proc.devRef .tc main_v36) = vecOf (W2 m ρ c (Proc.devRef .tc main_arg3)) ![1, 0] slices_S3x128_S1x128_1_0 := by
    show StableHlo.after hostOps1 (W2 m ρ c) (Proc.devRef .tc main_v36) = _
    after_results <;> rfl
  rw [h, W2_arg3]
theorem W3_v38 (c : Dev nD) : W3 m ρ c (Proc.devRef .tc main_v38) = matOf (m ((c : Thread nD τ).loc main_arg4)) ![1, 0, 0] slices_S3x128x128_S1x128x128_1_0_0 := by
  have h : W3 m ρ c (Proc.devRef .tc main_v38) = matOf (W2 m ρ c (Proc.devRef .tc main_arg4)) ![1, 0, 0] slices_S3x128x128_S1x128x128_1_0_0 := by
    show StableHlo.after hostOps1 (W2 m ρ c) (Proc.devRef .tc main_v38) = _
    after_results <;> rfl
  rw [h, W2_arg4]
theorem W3_v40 (c : Dev nD) : W3 m ρ c (Proc.devRef .tc main_v40) = vecOf (m ((c : Thread nD τ).loc main_arg5)) ![1, 0] slices_S3x128_S1x128_1_0 := by
  have h : W3 m ρ c (Proc.devRef .tc main_v40) = vecOf (W2 m ρ c (Proc.devRef .tc main_arg5)) ![1, 0] slices_S3x128_S1x128_1_0 := by
    show StableHlo.after hostOps1 (W2 m ρ c) (Proc.devRef .tc main_v40) = _
    after_results <;> rfl
  rw [h, W2_arg5]

/-- After the second grid its result array holds layer 1 of layer 0 of the features. -/
theorem W4_v41 (c : Dev nD) : W4 m ρ c (Proc.devRef .tc main_v41) = X2 m c := by
  refine (W4_arr m ρ c 6).trans ?_
  rw [Cert.KernelIdeal.GinRegion1.final (V3 m ρ) c]
  show mlp (W3 m ρ c (Proc.devRef .tc main_v22)) (W3 m ρ c (Proc.devRef .tc main_v32)) (W3 m ρ c (Proc.devRef .tc main_v34))
    (W3 m ρ c (Proc.devRef .tc main_v36)) (W3 m ρ c (Proc.devRef .tc main_v38)) (W3 m ρ c (Proc.devRef .tc main_v40)) = _
  rw [W3_v22, W3_v32, W3_v34, W3_v36, W3_v38, W3_v40]
  rfl

/-! ## Between the second and the third grid -/

theorem W3_v1 (c : Dev nD) : W3 m ρ c (Proc.devRef .tc main_v1) = srcOf (m ((c : Thread nD τ).loc main_arg1)) := by
  refine Eq.trans ?_ (W2_v1 m ρ c)
  show StableHlo.after hostOps1 (W2 m ρ c) (Proc.devRef .tc main_v1) = _
  after_results <;> rfl
theorem W3_v3 (c : Dev nD) : W3 m ρ c (Proc.devRef .tc main_v3) = dstOf (m ((c : Thread nD τ).loc main_arg1)) := by
  refine Eq.trans ?_ (W2_v3 m ρ c)
  show StableHlo.after hostOps1 (W2 m ρ c) (Proc.devRef .tc main_v3) = _
  after_results <;> rfl
theorem W3_arg2 (c : Dev nD) : W3 m ρ c (Proc.devRef .tc main_arg2) = (m ((c : Thread nD τ).loc main_arg2)) := by
  refine Eq.trans ?_ (W2_arg2 m ρ c)
  show StableHlo.after hostOps1 (W2 m ρ c) (Proc.devRef .tc main_arg2) = _
  after_results <;> rfl
theorem W3_arg3 (c : Dev nD) : W3 m ρ c (Proc.devRef .tc main_arg3) = (m ((c : Thread nD τ).loc main_arg3)) := by
  refine Eq.trans ?_ (W2_arg3 m ρ c)
  show StableHlo.after hostOps1 (W2 m ρ c) (Proc.devRef .tc main_arg3) = _
  after_results <;> rfl
theorem W3_arg4 (c : Dev nD) : W3 m ρ c (Proc.devRef .tc main_arg4) = (m ((c : Thread nD τ).loc main_arg4)) := by
  refine Eq.trans ?_ (W2_arg4 m ρ c)
  show StableHlo.after hostOps1 (W2 m ρ c) (Proc.devRef .tc main_arg4) = _
  after_results <;> rfl
theorem W3_arg5 (c : Dev nD) : W3 m ρ c (Proc.devRef .tc main_arg5) = (m ((c : Thread nD τ).loc main_arg5)) := by
  refine Eq.trans ?_ (W2_arg5 m ρ c)
  show StableHlo.after hostOps1 (W2 m ρ c) (Proc.devRef .tc main_arg5) = _
  after_results <;> rfl
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

theorem W5_v41 (c : Dev nD) : W5 m ρ c (Proc.devRef .tc main_v41) = X2 m c := by
  refine Eq.trans ?_ (W4_v41 m ρ c)
  show StableHlo.after hostOps2 (W4 m ρ c) (Proc.devRef .tc main_v41) = _
  after_results <;> rfl
theorem W5_v51 (c : Dev nD) : W5 m ρ c (Proc.devRef .tc main_v51)
    = agg (X2 m c) (srcOf (m ((c : Thread nD τ).loc main_arg1))) (dstOf (m ((c : Thread nD τ).loc main_arg1))) := by
  have h : W5 m ρ c (Proc.devRef .tc main_v51)
      = agg (W4 m ρ c (Proc.devRef .tc main_v41)) (W4 m ρ c (Proc.devRef .tc main_v1)) (W4 m ρ c (Proc.devRef .tc main_v3)) := by
    show StableHlo.after hostOps2 (W4 m ρ c) (Proc.devRef .tc main_v51) = _
    after_results <;> rfl
  rw [h, W4_v41, W4_v1, W4_v3]
theorem W5_v53 (c : Dev nD) : W5 m ρ c (Proc.devRef .tc main_v53) = matOf (m ((c : Thread nD τ).loc main_arg2)) ![2, 0, 0] slices_S3x128x128_S1x128x128_2_0_0 := by
  have h : W5 m ρ c (Proc.devRef .tc main_v53) = matOf (W4 m ρ c (Proc.devRef .tc main_arg2)) ![2, 0, 0] slices_S3x128x128_S1x128x128_2_0_0 := by
    show StableHlo.after hostOps2 (W4 m ρ c) (Proc.devRef .tc main_v53) = _
    after_results <;> rfl
  rw [h, W4_arg2]
theorem W5_v55 (c : Dev nD) : W5 m ρ c (Proc.devRef .tc main_v55) = vecOf (m ((c : Thread nD τ).loc main_arg3)) ![2, 0] slices_S3x128_S1x128_2_0 := by
  have h : W5 m ρ c (Proc.devRef .tc main_v55) = vecOf (W4 m ρ c (Proc.devRef .tc main_arg3)) ![2, 0] slices_S3x128_S1x128_2_0 := by
    show StableHlo.after hostOps2 (W4 m ρ c) (Proc.devRef .tc main_v55) = _
    after_results <;> rfl
  rw [h, W4_arg3]
theorem W5_v57 (c : Dev nD) : W5 m ρ c (Proc.devRef .tc main_v57) = matOf (m ((c : Thread nD τ).loc main_arg4)) ![2, 0, 0] slices_S3x128x128_S1x128x128_2_0_0 := by
  have h : W5 m ρ c (Proc.devRef .tc main_v57) = matOf (W4 m ρ c (Proc.devRef .tc main_arg4)) ![2, 0, 0] slices_S3x128x128_S1x128x128_2_0_0 := by
    show StableHlo.after hostOps2 (W4 m ρ c) (Proc.devRef .tc main_v57) = _
    after_results <;> rfl
  rw [h, W4_arg4]
theorem W5_v59 (c : Dev nD) : W5 m ρ c (Proc.devRef .tc main_v59) = vecOf (m ((c : Thread nD τ).loc main_arg5)) ![2, 0] slices_S3x128_S1x128_2_0 := by
  have h : W5 m ρ c (Proc.devRef .tc main_v59) = vecOf (W4 m ρ c (Proc.devRef .tc main_arg5)) ![2, 0] slices_S3x128_S1x128_2_0 := by
    show StableHlo.after hostOps2 (W4 m ρ c) (Proc.devRef .tc main_v59) = _
    after_results <;> rfl
  rw [h, W4_arg5]

/-- THE RESULT: after the third grid the result array holds layer 2 of layer 1 of layer 0 of the features. -/
theorem W6_v60 (c : Dev nD) : W6 m ρ c (Proc.devRef .tc main_v60) = X3 m c := by
  refine (W6_arr m ρ c 6).trans ?_
  rw [Cert.KernelIdeal.GinRegion2.final (V5 m ρ) c]
  show mlp (W5 m ρ c (Proc.devRef .tc main_v41)) (W5 m ρ c (Proc.devRef .tc main_v51)) (W5 m ρ c (Proc.devRef .tc main_v53))
    (W5 m ρ c (Proc.devRef .tc main_v55)) (W5 m ρ c (Proc.devRef .tc main_v57)) (W5 m ρ c (Proc.devRef .tc main_v59)) = _
  rw [W5_v41, W5_v51, W5_v53, W5_v55, W5_v57, W5_v59]
  rfl

end Cert.KernelIdeal.GinFold

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.LibRowBroadcast.lean ====
/-
  A vector laid out as one row and repeated over many rows, read at an entry.

  A bias vector `b` of length `n` is added to an `[a, n]` array through two `broadcast_in_dim`s: `b` to `[1, n]` along axis 1,
  then that row to `[a, n]` along both axes. The result at `(p, q)` is `b q`, whatever the row `p`.
-/
import Idealize.ShloMosaic.Lib.Pipeline.Value
import Idealize.ShloMosaic.Lib.ValueIdx

noncomputable section

namespace Cert.LibRowBroadcast

open Idealize.ShloMosaic Idealize.ShloMosaic.ValueIdx

/-- A length-`n` vector broadcast to `[1, n]` along axis 1 reads, at `(u, q)`, the vector at `q`. -/
theorem vector_as_row_apply {α : Type} {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply ![1] h x (ix2 u q) (ix1 q) fun a => ?_
  match a with
  | ⟨0, _⟩ =>
    show q.val = if n = 1 then 0 else q.val
    split
    · have := q.isLt; omega
    · rfl

/-- A `[1, n]` row broadcast to `[a, n]` along both axes reads, at `(p, q)`, the row at `q`. -/
theorem row_over_rows_apply {α : Type} {a n : ℕ} (x : (⟨2, ![1, n]⟩ : Shape).Idx → α)
    (h : (⟨2, ![1, n]⟩ : Shape).BroadcastsInDim ⟨2, ![a, n]⟩ (![0, 1] : Fin 2 → Fin 2)) (p : Fin a) (q : Fin n) :
    broadcastInDim ⟨2, ![a, n]⟩ ![0, 1] h x (ix2 p q) = x (ix2 (0 : Fin 1) q) := by
  refine broadcastInDim_apply ![0, 1] h x (ix2 p q) (ix2 (0 : Fin 1) q) fun ax => ?_
  match ax with
  | ⟨0, _⟩ => show 0 = if (1 : ℕ) = 1 then 0 else p.val; rw [if_pos rfl]
  | ⟨1, _⟩ =>
    show q.val = if n = 1 then 0 else q.val
    split
    · have := q.isLt; omega
    · rfl

/-- The two together: a vector added as a bias to every row reads, at `(p, q)`, the vector at `q`. -/
theorem vector_over_rows_apply {α : Type} {a n : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 x) (ix2 p q) = x (ix1 q) := by
  rw [row_over_rows_apply, vector_as_row_apply]

end Cert.LibRowBroadcast

end
-- ==== Proof.LibBroadcasts.lean ====
/-
  Three broadcast_in_dim forms read at an index, for any extents: a scalar broadcast to any shape reads the scalar; a
  vector of a values laid out as a column [a, 1] (dims [0]) reads the vector at the row; a column [a, 1] repeated along
  a new last axis to [a, b] (dims [0, 1]) reads the column at the row.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A scalar broadcast to any shape reads, at every index, the scalar. -/
theorem scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 (fun a => a.elim0)

/-- An [a] vector laid out as the column [a, 1] reads, at (p, z), the vector at p. -/
theorem vector_as_column_apply {a : ℕ} (x : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ ![0] h x (ix2 p z) = x (ix1 p) := by
  refine broadcastInDim_apply ![0] h x (ix2 p z) (ix1 p) fun ax => ?_
  match ax with
  | ⟨0, _⟩ =>
    show p.val = if a = 1 then 0 else p.val
    split
    · have := p.isLt; omega
    · rfl

/-- A column [a, 1] repeated along a new last axis to [a, b] reads, at (p, q), the column at row p. -/
theorem column_over_columns_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else q.val; rw [if_pos rfl]

end Cert.LibBroadcasts

end
-- ==== Proof.LibHostLayers.lean ====
/-
  The layers of a small dense network as the host's array operations apply them to a whole array of rows, read at an
  entry in exact arithmetic, for any extents.

  The statements mirror the ones for a kernel's block: each group of host operations, read at the entry `(r, q)`,
  is a row operation (`Cert.LibRowOps`) of row `r` of the operand alone. The host spells a bias as a vector laid out
  as one row and then repeated over the rows, a per-row scalar as a vector laid out as a column and then repeated along
  the columns, a constant as a rank-0 array repeated everywhere, and a row sum as a reduction starting from a rank-0
  zero; in exact arithmetic that zero is the number zero and drops out of the sum.
-/
import proofs.«150625_j53979148976510_1_alg».proof.Proof.LibRowOps
import proofs.«150625_j53979148976510_1_alg».proof.Proof.LibPlainHostDot
import proofs.«150625_j53979148976510_1_alg».proof.Proof.LibRowBroadcast
import proofs.«150625_j53979148976510_1_alg».proof.Proof.LibBroadcasts

noncomputable section

open scoped BigOperators

namespace Cert.LibHostLayers

open Idealize.ShloMosaic Idealize.ShloMosaic.ValueIdx Cert.LibRowOps

/-- The host's plain product plus a bias vector repeated over the rows, at `(r, q)`: the affine map of row `r`. -/
theorem affine_host_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (q : Fin N) :
    addf (Host.dotGeneral D none x w)
        (broadcastInDim ⟨2, ![R, N]⟩ ![0, 1] h2 (broadcastInDim ⟨2, ![1, N]⟩ ![1] h1 b)) (ix2 r q)
      = affine (rowOf x r) w b q := by
  show Host.dotGeneral D none x w (ix2 r q)
      + broadcastInDim ⟨2, ![R, N]⟩ ![0, 1] h2 (broadcastInDim ⟨2, ![1, N]⟩ ![1] h1 b) (ix2 r q) = _
  rw [Cert.LibPlainHostDot.hostDot_plain D hr hs hl0 hl1 hr0 hr1, Cert.LibRowBroadcast.vector_over_rows_apply]
  rfl

/-- The rectifier against a rank-0 float zero repeated everywhere, at any index. -/
theorem relu_host_apply {s : Shape} (v : FVec Ideal s .f32)
    (h : (⟨0, ![]⟩ : Shape).BroadcastsInDim s (![] : Fin 0 → Fin s.rank)) (i : s.Idx) :
    maximumf v (broadcastInDim s ![] h (constant (F := Ideal) ⟨0, ![]⟩ .f32 0x00000000#32)) i
      = max (v i) (Ideal.ofBits .f32 0x00000000#32) := by
  show max (v i) (broadcastInDim s ![] h (constant (F := Ideal) ⟨0, ![]⟩ .f32 0x00000000#32) i) = _
  rw [Cert.LibBroadcasts.scalar_apply]
  rfl

/-- The host's sum over the last axis from a rank-0 zero, at `r`: the plain sum of row `r`. -/
theorem row_sum_host_apply {R N : ℕ} (v : FVec Ideal ⟨2, ![R, N]⟩ .f32)
    (hred : (⟨2, ![R, N]⟩ : Shape).ReducesTo [(1 : Fin 2)] ⟨1, ![R]⟩) (hu : 0 < (⟨0, ![]⟩ : Shape).numel)
    (hR : (⟨2, ![R, N]⟩ : Shape).Reduces [(1 : Fin 2)] ⟨1, ![R]⟩) (r : Fin R) :
    Host.reduceAdd v (constant (F := Ideal) ⟨0, ![]⟩ .f32 0x00000000#32) hred hu (ix1 r) = ∑ k : Fin N, v (ix2 r k) := by
  show Ideal.hostReduceAdd hred v (Ideal.ofBits .f32 0x00000000#32) (ix1 r) = _
  rw [Ideal.hostReduceAdd_single hred hR, Ideal.ofBits_zero_f32, zero_add]
  refine Finset.sum_congr rfl fun k _ => congrArg v ?_
  funext c
  apply Fin.ext
  match c with
  | ⟨0, _⟩ => rfl
  | ⟨1, _⟩ => rfl

/-- The row sum laid out as a column and divided by a rank-0 constant repeated over the column, at `(r, z)`: the mean
    of row `r`. -/
theorem mean_host_apply {R N : ℕ} (v : FVec Ideal ⟨2, ![R, N]⟩ .f32)
    (hred : (⟨2, ![R, N]⟩ : Shape).ReducesTo [(1 : Fin 2)] ⟨1, ![R]⟩) (hu : 0 < (⟨0, ![]⟩ : Shape).numel)
    (hR : (⟨2, ![R, N]⟩ : Shape).Reduces [(1 : Fin 2)] ⟨1, ![R]⟩)
    (h0 : (⟨1, ![R]⟩ : Shape).BroadcastsInDim ⟨2, ![R, 1]⟩ (![0] : Fin 1 → Fin 2))
    (hd : (⟨0, ![]⟩ : Shape).BroadcastsInDim ⟨2, ![R, 1]⟩ (![] : Fin 0 → Fin 2)) (d : BitVec 32)
    (r : Fin R) (z : Fin 1) :
    Host.divf (broadcastInDim ⟨2, ![R, 1]⟩ ![0] h0
          (Host.reduceAdd v (constant (F := Ideal) ⟨0, ![]⟩ .f32 0x00000000#32) hred hu))
        (broadcastInDim ⟨2, ![R, 1]⟩ ![] hd (constant (F := Ideal) ⟨0, ![]⟩ .f32 d)) (ix2 r z)
      = mean (Ideal.ofBits .f32 d) (rowOf v r) := by
  show Ideal.div (broadcastInDim ⟨2, ![R, 1]⟩ ![0] h0
          (Host.reduceAdd v (constant (F := Ideal) ⟨0, ![]⟩ .f32 0x00000000#32) hred hu) (ix2 r z))
        (broadcastInDim ⟨2, ![R, 1]⟩ ![] hd (constant (F := Ideal) ⟨0, ![]⟩ .f32 d) (ix2 r z)) = _
  rw [Cert.LibBroadcasts.vector_as_column_apply, Cert.LibBroadcasts.scalar_apply, row_sum_host_apply v hred hu hR]
  rfl

/-- An array less a column repeated along the columns, at `(r, q)`. -/
theorem sub_column_host_apply {R N : ℕ} (v : FVec Ideal ⟨2, ![R, N]⟩ .f32) (col : FVec Ideal ⟨2, ![R, 1]⟩ .f32)
    (h : (⟨2, ![R, 1]⟩ : Shape).BroadcastsInDim ⟨2, ![R, N]⟩ (![0, 1] : Fin 2 → Fin 2)) (r : Fin R) (q : Fin N) :
    subf v (broadcastInDim ⟨2, ![R, N]⟩ ![0, 1] h col) (ix2 r q) = v (ix2 r q) - col (ix2 r (0 : Fin 1)) := by
  show v (ix2 r q) - broadcastInDim ⟨2, ![R, N]⟩ ![0, 1] h col (ix2 r q) = _
  rw [Cert.LibBroadcasts.column_over_columns_apply]

/-- A centred array `c` times the host's reciprocal root of a column `v` plus a rank-0 constant, times a gain vector and
    plus a shift vector, both repeated over the rows, at `(r, q)`. -/
theorem rescale_host_apply {R N : ℕ} (c : FVec Ideal ⟨2, ![R, N]⟩ .f32) (v : FVec Ideal ⟨2, ![R, 1]⟩ .f32)
    (ε : BitVec 32) (g b : FVec Ideal ⟨1, ![N]⟩ .f32)
    (hε : (⟨0, ![]⟩ : Shape).BroadcastsInDim ⟨2, ![R, 1]⟩ (![] : Fin 0 → Fin 2))
    (hv : (⟨2, ![R, 1]⟩ : Shape).BroadcastsInDim ⟨2, ![R, N]⟩ (![0, 1] : Fin 2 → Fin 2))
    (hg1 : (⟨1, ![N]⟩ : Shape).BroadcastsInDim ⟨2, ![1, N]⟩ (![1] : Fin 1 → Fin 2))
    (hg2 : (⟨2, ![1, N]⟩ : Shape).BroadcastsInDim ⟨2, ![R, N]⟩ (![0, 1] : Fin 2 → Fin 2))
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (r : Fin R) (q : Fin N) :
    addf (mulf (mulf c (broadcastInDim ⟨2, ![R, N]⟩ ![0, 1] hv
            (Host.rsqrt (addf v (broadcastInDim ⟨2, ![R, 1]⟩ ![] hε (constant (F := Ideal) ⟨0, ![]⟩ .f32 ε))))))
          (broadcastInDim ⟨2, ![R, N]⟩ ![0, 1] hg2 (broadcastInDim ⟨2, ![1, N]⟩ ![1] hg1 g)))
        (broadcastInDim ⟨2, ![R, N]⟩ ![0, 1] hb2 (broadcastInDim ⟨2, ![1, N]⟩ ![1] hb1 b)) (ix2 r q)
      = rescale (Ideal.ofBits .f32 ε) (rowOf c r) (v (ix2 r (0 : Fin 1))) g b q := by
  show c (ix2 r q) * broadcastInDim ⟨2, ![R, N]⟩ ![0, 1] hv
            (Host.rsqrt (addf v (broadcastInDim ⟨2, ![R, 1]⟩ ![] hε (constant (F := Ideal) ⟨0, ![]⟩ .f32 ε)))) (ix2 r q)
        * broadcastInDim ⟨2, ![R, N]⟩ ![0, 1] hg2 (broadcastInDim ⟨2, ![1, N]⟩ ![1] hg1 g) (ix2 r q)
      + broadcastInDim ⟨2, ![R, N]⟩ ![0, 1] hb2 (broadcastInDim ⟨2, ![1, N]⟩ ![1] hb1 b) (ix2 r q) = _
  rw [Cert.LibBroadcasts.column_over_columns_apply, Cert.LibRowBroadcast.vector_over_rows_apply,
    Cert.LibRowBroadcast.vector_over_rows_apply]
  show c (ix2 r q) * Ideal.rsqrt (v (ix2 r (0 : Fin 1))
        + broadcastInDim ⟨2, ![R, 1]⟩ ![] hε (constant (F := Ideal) ⟨0, ![]⟩ .f32 ε) (ix2 r (0 : Fin 1)))
        * g (ix1 q) + b (ix1 q) = _
  rw [Cert.LibBroadcasts.scalar_apply]
  rfl

/-- A dense layer followed by the rectifier, at `(r, q)`. -/
theorem relu_affine_host_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) (r : Fin R) (q : Fin N) :
    maximumf (addf (Host.dotGeneral D none x w)
          (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 r q)
      = relu (affine (rowOf x r) w b) q :=
  (relu_host_apply _ h0 _).trans
    (congrArg (max · (Ideal.ofBits .f32 0x00000000#32)) (affine_host_apply D hr hs hl0 hl1 hr0 hr1 x w b h1 h2 r q))

end Cert.LibHostLayers

end
-- ==== Proof.GinRef.lean ====
/-
  The reference program's result as three layers, one after the other.

  The reference computes, three times over, the aggregate of the current features (the same gather at the edges'
  sources and sum into the edges' targets as the other program's host code), adds it to the features, and applies two
  affine maps each followed by the rectifier: as whole-array operations, a product contracting the last axis of the
  left factor with the first of the right, a bias vector laid out as one row and repeated over the rows, a maximum with
  a zero repeated everywhere. Read at an entry `(r, q)` that is the layer (`Cert.Gin.mlp`) of the features and their
  aggregate: the product is a sum over the contracted coordinate and the repeated bias reads the vector at `q`.
-/
import proofs.«150625_j53979148976510_1_alg».proof.Proof.Gen.ReferenceIdeal.Run
import proofs.«150625_j53979148976510_1_alg».proof.Proof.Gen.ReferenceIdeal.Read
import proofs.«150625_j53979148976510_1_alg».proof.Proof.LibHostLayers
import proofs.«150625_j53979148976510_1_alg».proof.Proof.GinSpec

set_option maxRecDepth 16384

noncomputable section

namespace Cert.ReferenceIdeal.GinRef

open Cert.ReferenceIdeal Cert.ReferenceIdeal.Gen Idealize.ShloMosaic Idealize.ShloMosaic.TcCoe Idealize.SL.Sem
open Idealize.ShloMosaic.ValueIdx Cert.LibRowOps Cert.Gin

abbrev Arr := FVec Ideal S50000x128 .f32
abbrev Edges := IVec S2x800000 32
abbrev Ends := IVec S800000 32
abbrev Mats := FVec Ideal S3x128x128 .f32
abbrev Vecs := FVec Ideal S3x128 .f32
abbrev Mat1 := FVec Ideal S128x128 .f32
abbrev Vec1 := FVec Ideal S128 .f32

/-- The edges' sources: row 0 of the edge list. -/
def srcOf (ei : Edges) : Ends :=
  shapeCast _ (extractStridedSlice S1x800000 ![0, 0] ei slices_S2x800000_S1x800000_0_0) shapeCasts_S1x800000_S800000
/-- The edges' targets: row 1 of the edge list. -/
def dstOf (ei : Edges) : Ends :=
  shapeCast _ (extractStridedSlice S1x800000 ![1, 0] ei slices_S2x800000_S1x800000_1_0) shapeCasts_S1x800000_S800000

/-- The aggregate: the rows of `x` gathered at the sources (a negative index wrapped by the number of nodes) and
    summed into the rows at the targets, from zero. -/
def agg (x : Arr) (src dst : Ends) : Arr :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One matrix of a stack of three, and one vector of a stack of three. -/
def matOf (W : Mats) (s : Fin 3 → Nat) (h : S3x128x128.Slices s S1x128x128) : Mat1 :=
  shapeCast _ (extractStridedSlice S1x128x128 s W h) shapeCasts_S1x128x128_S128x128
def vecOf (b : Vecs) (s : Fin 2 → Nat) (h : S3x128.Slices s S1x128) : Vec1 :=
  shapeCast _ (extractStridedSlice S1x128 s b h) shapeCasts_S1x128_S128

/-- One layer as the host spells it. -/
def hostLayer (x : Arr) (ei : Edges) (w1 : Mat1) (b1 : Vec1) (w2 : Mat1) (b2 : Vec1) : Arr :=
  maximumf (addf (Host.dotGeneral (F := Ideal) dot_S50000x128_S128x128_S50000x128_1_0_0_1_n_n none
        (maximumf (addf (Host.dotGeneral (F := Ideal) dot_S50000x128_S128x128_S50000x128_1_0_0_1_n_n none
              (addf x (agg x (srcOf ei) (dstOf ei))) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
      (broadcastInDim S50000x128 ![0, 1] bcast_S1x128_S50000x128_0_1 (broadcastInDim S1x128 ![1] bcast_S128_S1x128_1 b2)))
    (broadcastInDim S50000x128 ![] bcast_S_S50000x128 (constant (F := Ideal) S_ .f32 0x00000000#32))

/-- One layer: the dense half applied to the features and their aggregate. -/
def layer (x : Arr) (ei : Edges) (w1 : Mat1) (b1 : Vec1) (w2 : Mat1) (b2 : Vec1) : Arr :=
  mlp (x : S50000x128.Idx → EReal) (agg x (srcOf ei) (dstOf ei) : S50000x128.Idx → EReal) (w1 : S128x128.Idx → EReal)
    (b1 : S128.Idx → EReal) (w2 : S128x128.Idx → EReal) (b2 : S128.Idx → EReal)

/-- The host's spelling of a layer is the layer, entry by entry. -/
theorem hostLayer_eq (x : Arr) (ei : Edges) (w1 : Mat1) (b1 : Vec1) (w2 : Mat1) (b2 : Vec1) :
    hostLayer x ei w1 b1 w2 b2 = layer x ei w1 b1 w2 b2 := by
  funext i
  obtain ⟨r, q, rfl⟩ : ∃ (r : Fin 50000) (q : Fin 128), i = ix2 r q := ⟨i 0, i 1, eq_ix2 i⟩
  unfold hostLayer layer
  generalize agg x (srcOf ei) (dstOf ei) = a
  refine (Cert.LibHostLayers.relu_affine_host_apply dot_S50000x128_S128x128_S50000x128_1_0_0_1_n_n rfl rfl
    Cert.ReferenceIdeal.Read.lhs_main_v17_0 Cert.ReferenceIdeal.Read.lhs_main_v17_1
    Cert.ReferenceIdeal.Read.rhs_main_v17_0 Cert.ReferenceIdeal.Read.rhs_main_v17_1 _ w2 b2 _ _ _ r q).trans ?_
  rw [mlp_apply]
  unfold mlpRow
  refine congrArg (fun z => relu (affine z w2 b2) q) ?_
  funext k
  exact Cert.LibHostLayers.relu_affine_host_apply dot_S50000x128_S128x128_S50000x128_1_0_0_1_n_n rfl rfl
    Cert.ReferenceIdeal.Read.lhs_main_v17_0 Cert.ReferenceIdeal.Read.lhs_main_v17_1
    Cert.ReferenceIdeal.Read.rhs_main_v17_0 Cert.ReferenceIdeal.Read.rhs_main_v17_1 (addf x a) w1 b1 _ _ _ r k

/-- The three layers, one after the other, as a function of the six arguments. -/
def net (x : Arr) (ei : Edges) (W1 : Mats) (B1 : Vecs) (W2 : Mats) (B2 : Vecs) : Arr :=
  layer (layer (layer x ei
        (matOf W1 ![0, 0, 0] slices_S3x128x128_S1x128x128_0_0_0) (vecOf B1 ![0, 0] slices_S3x128_S1x128_0_0)
        (matOf W2 ![0, 0, 0] slices_S3x128x128_S1x128x128_0_0_0) (vecOf B2 ![0, 0] slices_S3x128_S1x128_0_0)) ei
      (matOf W1 ![1, 0, 0] slices_S3x128x128_S1x128x128_1_0_0) (vecOf B1 ![1, 0] slices_S3x128_S1x128_1_0)
      (matOf W2 ![1, 0, 0] slices_S3x128x128_S1x128x128_1_0_0) (vecOf B2 ![1, 0] slices_S3x128_S1x128_1_0)) ei
    (matOf W1 ![2, 0, 0] slices_S3x128x128_S1x128x128_2_0_0) (vecOf B1 ![2, 0] slices_S3x128_S1x128_2_0)
    (matOf W2 ![2, 0, 0] slices_S3x128x128_S1x128x128_2_0_0) (vecOf B2 ![2, 0] slices_S3x128_S1x128_2_0)

variable (m : (ℓ : Loc nD τ sig) → Buf (Elt Ideal) ℓ)

/-- The features after layer 0, 1, 2. -/
def X1 (c : Dev nD) : Arr :=
  layer (m ((c : Thread nD τ).loc main_arg0)) (m ((c : Thread nD τ).loc main_arg1))
    (matOf (m ((c : Thread nD τ).loc main_arg2)) ![0, 0, 0] slices_S3x128x128_S1x128x128_0_0_0)
    (vecOf (m ((c : Thread nD τ).loc main_arg3)) ![0, 0] slices_S3x128_S1x128_0_0)
    (matOf (m ((c : Thread nD τ).loc main_arg4)) ![0, 0, 0] slices_S3x128x128_S1x128x128_0_0_0)
    (vecOf (m ((c : Thread nD τ).loc main_arg5)) ![0, 0] slices_S3x128_S1x128_0_0)
def X2 (c : Dev nD) : Arr :=
  layer (X1 m c) (m ((c : Thread nD τ).loc main_arg1))
    (matOf (m ((c : Thread nD τ).loc main_arg2)) ![1, 0, 0] slices_S3x128x128_S1x128x128_1_0_0)
    (vecOf (m ((c : Thread nD τ).loc main_arg3)) ![1, 0] slices_S3x128_S1x128_1_0)
    (matOf (m ((c : Thread nD τ).loc main_arg4)) ![1, 0, 0] slices_S3x128x128_S1x128x128_1_0_0)
    (vecOf (m ((c : Thread nD τ).loc main_arg5)) ![1, 0] slices_S3x128_S1x128_1_0)
def X3 (c : Dev nD) : Arr :=
  layer (X2 m c) (m ((c : Thread nD τ).loc main_arg1))
    (matOf (m ((c : Thread nD τ).loc main_arg2)) ![2, 0, 0] slices_S3x128x128_S1x128x128_2_0_0)
    (vecOf (m ((c : Thread nD τ).loc main_arg3)) ![2, 0] slices_S3x128_S1x128_2_0)
    (matOf (m ((c : Thread nD τ).loc main_arg4)) ![2, 0, 0] slices_S3x128x128_S1x128x128_2_0_0)
    (vecOf (m ((c : Thread nD τ).loc main_arg5)) ![2, 0] slices_S3x128_S1x128_2_0)

theorem X3_eq_net (c : Dev nD) : X3 m c = net (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := rfl

/-- The run's term is the host's spelling of the three layers, nested. -/
theorem res_nested (c : Dev nD) : Cert.ReferenceIdeal.Value.res_out0 m c =
    hostLayer (hostLayer (hostLayer (m ((c : Thread nD τ).loc main_arg0)) (m ((c : Thread nD τ).loc main_arg1))
          (matOf (m ((c : Thread nD τ).loc main_arg2)) ![0, 0, 0] slices_S3x128x128_S1x128x128_0_0_0)
          (vecOf (m ((c : Thread nD τ).loc main_arg3)) ![0, 0] slices_S3x128_S1x128_0_0)
          (matOf (m ((c : Thread nD τ).loc main_arg4)) ![0, 0, 0] slices_S3x128x128_S1x128x128_0_0_0)
          (vecOf (m ((c : Thread nD τ).loc main_arg5)) ![0, 0] slices_S3x128_S1x128_0_0))
        (m ((c : Thread nD τ).loc main_arg1))
        (matOf (m ((c : Thread nD τ).loc main_arg2)) ![1, 0, 0] slices_S3x128x128_S1x128x128_1_0_0)
        (vecOf (m ((c : Thread nD τ).loc main_arg3)) ![1, 0] slices_S3x128_S1x128_1_0)
        (matOf (m ((c : Thread nD τ).loc main_arg4)) ![1, 0, 0] slices_S3x128x128_S1x128x128_1_0_0)
        (vecOf (m ((c : Thread nD τ).loc main_arg5)) ![1, 0] slices_S3x128_S1x128_1_0))
      (m ((c : Thread nD τ).loc main_arg1))
      (matOf (m ((c : Thread nD τ).loc main_arg2)) ![2, 0, 0] slices_S3x128x128_S1x128x128_2_0_0)
      (vecOf (m ((c : Thread nD τ).loc main_arg3)) ![2, 0] slices_S3x128_S1x128_2_0)
      (matOf (m ((c : Thread nD τ).loc main_arg4)) ![2, 0, 0] slices_S3x128x128_S1x128x128_2_0_0)
      (vecOf (m ((c : Thread nD τ).loc main_arg5)) ![2, 0] slices_S3x128_S1x128_2_0) := by
  show Cert.ReferenceIdeal.Value.res_main_v90 m c = _
  unfold Cert.ReferenceIdeal.Value.res_main_v90 hostLayer agg srcOf dstOf matOf vecOf
  rfl

/-- The reference's result is layer 2 of layer 1 of layer 0 of the features. -/
theorem res_eq (c : Dev nD) : Cert.ReferenceIdeal.Value.res_out0 m c = X3 m c := by
  rw [res_nested, hostLayer_eq, hostLayer_eq, hostLayer_eq]
  rfl

end Cert.ReferenceIdeal.GinRef

end
-- ==== Proof.GinBridge.lean ====
/-
  The two programs compute one function.

  Each program's result is three layers applied one after the other to the features (the two modules before this one);
  the layers are the same expression of the six arguments in both — the same aggregate of the same edge list, the same
  slices of the stacked weights, the same dense half —, so from memories that agree on the arguments the two results are
  equal entry by entry.
-/
import proofs.«150625_j53979148976510_1_alg».proof.Proof.GinRun
import proofs.«150625_j53979148976510_1_alg».proof.Proof.GinFold
import proofs.«150625_j53979148976510_1_alg».proof.Proof.GinRef

noncomputable section

namespace Cert.GinBridge

open Idealize.ShloMosaic Idealize.ShloMosaic.TcCoe Idealize.SL.Sem

/-- The three layers are the same function of the arguments in both programs. -/
theorem net_eq : Cert.ReferenceIdeal.GinRef.net = Cert.KernelIdeal.GinFold.net := rfl

end Cert.GinBridge

end
-- ==== Proof.lean ====
/-
  Three graph-isomorphism layers: a kernel for the dense half against a whole-array reference.

  Both programs take node features, an edge list, and three stacked pairs of weight matrices and bias vectors. Three
  times over they aggregate each node's neighbours (gather the rows at the edges' sources, sum them into the rows at
  the edges' targets), add the aggregate to the features, and apply two affine maps each followed by the rectifier.
  The first program does the aggregation on the host and the dense half in a grid of 25 blocks of 2000 rows, with the
  matrix operands narrowed to a shorter float format; the reference does everything with whole-array operations.

  Over the extended reals the narrowing is the identity, a block product into zero and a whole-array product are both
  the sum over the contracted coordinate, and row `p` of the dense half depends on row `p` of its two inputs only. So
  each grid leaves the dense half of the whole arrays it finds (`GinRegion0/1/2`), the program's result is the three
  layers nested (`GinFold`, over the run with its result named, `GinRun`), the reference's result is the same three
  layers (`GinRef`), and the layers are one function of the arguments (`GinBridge`). No law that needs finite entries
  is used: the two sides are the same expression, so the precondition is never opened.

  The three frame claims are the generated frame of each kernel program and the reference's run with its result
  dropped; the idealization rewrote nothing, so `preserves` is `True`.
-/
import proofs.«150625_j53979148976510_1_alg».proof.Defs
import proofs.«150625_j53979148976510_1_alg».proof.Proof.Gen.Kernel
import proofs.«150625_j53979148976510_1_alg».proof.Proof.Gen.Kernel.Frame
import proofs.«150625_j53979148976510_1_alg».proof.Proof.Gen.KernelIdeal
import proofs.«150625_j53979148976510_1_alg».proof.Proof.Gen.KernelIdeal.Frame
import proofs.«150625_j53979148976510_1_alg».proof.Proof.Gen.ReferenceIdeal
import proofs.«150625_j53979148976510_1_alg».proof.Proof.Gen.ReferenceIdeal.Run
import proofs.«150625_j53979148976510_1_alg».proof.Proof.Gen.Pre_finite_inputs
import proofs.«150625_j53979148976510_1_alg».proof.Proof.GinBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the three nested layers of the arguments, which agree. -/
theorem algebraic : Cert.algebraic_KernelIdeal_ReferenceIdeal := by
  intro m ρ m' ρ' _ hagree
  refine ⟨fun c => Cert.KernelIdeal.GinFold.X3 m c, ?_, ?_⟩
  · exact (θ_run Cert.KernelIdeal.defs _ _).mono
      (fun r h c => ⟨(h c).1.trans (Cert.KernelIdeal.GinFold.W6_v60 m ρ c), (h c).2⟩)
      (Cert.KernelIdeal.GinRun.run_named (F := Ideal) m ρ)
  · refine (θ_run Cert.ReferenceIdeal.defs _ _).mono (fun _ h c => ⟨(h c).1.trans ?_, (h c).2⟩)
      (Cert.ReferenceIdeal.Value.run (F := Ideal) m' ρ')
    show Cert.ReferenceIdeal.Value.res_out0 m' c = Cert.KernelIdeal.GinFold.X3 m c
    rw [Cert.ReferenceIdeal.GinRef.res_eq m' c, Cert.ReferenceIdeal.GinRef.X3_eq_net, Cert.KernelIdeal.GinFold.X3_eq_net,
      Cert.GinBridge.net_eq]
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
